-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)) (v3 : (c : Dev Cert.KernelIdeal.nD) → Buf (Elt Ideal) ((c.tc : Thread Cert.KernelIdeal.nD Cert.KernelIdeal.τ).loc Cert.KernelIdeal.main_arg3)) (v4 : (c : Dev Cert.KernelIdeal.nD) → Buf (Elt Ideal) ((c.tc : Thread Cert.KernelIdeal.nD Cert.KernelIdeal.τ).loc Cert.KernelIdeal.main_arg4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg3) = v3 c
          ∧ r.2.mem ((c.tc : Thread Cert.KernelIdeal.nD Cert.KernelIdeal.τ).loc Cert.KernelIdeal.main_arg4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg3) = v3 c
          ∧ r.2.mem ((c.tc : Thread Cert.ReferenceIdeal.nD Cert.ReferenceIdeal.τ).loc Cert.ReferenceIdeal.main_arg4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32 : Shape := ⟨2, ![4096, 32]⟩
abbrev S32768x32 : Shape := ⟨2, ![32768, 32]⟩
abbrev S1x32 : Shape := ⟨2, ![1, 32]⟩
abbrev S4096x4096 : Shape := ⟨2, ![4096, 4096]⟩
abbrev S4096x32768 : Shape := ⟨2, ![4096, 32768]⟩
abbrev S_ : Shape := ⟨0, ![]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel
  bcast_S_S32768x32 : S_.BroadcastsInDim S32768x32 (![] : Fin 0 → Fin S32768x32.rank)
  reducesTo_S32768x32_S_d0_1 : S32768x32.ReducesTo [0, 1] S_
  bcast_S_S1x32 : S_.BroadcastsInDim S1x32 (![] : Fin 0 → Fin S1x32.rank)
  reducesTo_S1x32_S_d0_1 : S1x32.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096x32768 : S_.BroadcastsInDim S4096x32768 (![] : Fin 0 → Fin S4096x32768.rank)
  reducesTo_S4096x32768_S_d0_1 : S4096x32768.ReducesTo [0, 1] S_

variable [Facts]

def fn_part1 {F : FTy → Type} [FloatOps F] (main_arg4 : FVec F S4096x32768 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x32768 .f32 := Host.absf main_arg4
  let main_cst_6 : FVec F S_ .f32 := constant S_ .f32 0x7F800000#32
  let main_v20 : FVec F S4096x32768 .f32 := broadcastInDim S4096x32768 ![] bcast_S_S4096x32768 main_cst_6
  let main_v21 : IVec S4096x32768 1 := cmpf .olt main_v19 main_v20
  let main_c_7 : IVec S_ 1 := constantI S_ 1 1#1
  let main_v22 : IVec S_ 1 := (fun x v => Host.reduce IntOp.andi x v reducesTo_S4096x32768_S_d0_1 h_S_) main_v21 main_c_7
  let main_v23 : IVec S_ 1 := andi main_v18 main_v22
  main_v23

def fn {F : FTy → Type} [FloatOps F] (main_arg0 : FVec F S4096x32 .f32) (main_arg1 : FVec F S32768x32 .f32) (main_arg2 : FVec F S1x32 .f32) (main_arg3 : FVec F S4096x4096 .f32) (main_arg4 : FVec F S4096x32768 .f32) : IVec S_ 1 :=
  let main_v0 : FVec F S4096x32 .f32 := Host.absf main_arg0
  let main_cst : FVec F S_ .f32 := constant S_ .f32 0x7F800000#32
  let main_v1 : FVec F S4096x32 .f32 := broadcastInDim S4096x32 ![] bcast_S_S4096x32 main_cst
  let main_v2 : IVec S4096x32 1 := cmpf .olt main_v0 main_v1
  let main_c : IVec S_ 1 := constantI S_ 1 1#1
  let main_v3 : IVec S_ 1 := (fun x v => Host.reduce IntOp.andi x v reducesTo_S4096x32_S_d0_1 h_S_) main_v2 main_c
  let main_v4 : FVec F S32768x32 .f32 := Host.absf main_arg1
  let main_cst_0 : FVec F S_ .f32 := constant S_ .f32 0x7F800000#32
  let main_v5 : FVec F S32768x32 .f32 := broadcastInDim S32768x32 ![] bcast_S_S32768x32 main_cst_0
  let main_v6 : IVec S32768x32 1 := cmpf .olt main_v4 main_v5
  let main_c_1 : IVec S_ 1 := constantI S_ 1 1#1
  let main_v7 : IVec S_ 1 := (fun x v => Host.reduce IntOp.andi x v reducesTo_S32768x32_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S4096x32 : Shape := ⟨2, ![4096, 32]⟩
abbrev S32768x32 : Shape := ⟨2, ![32768, 32]⟩
abbrev S1x32 : Shape := ⟨2, ![1, 32]⟩
abbrev S4096x4096 : Shape := ⟨2, ![4096, 4096]⟩
abbrev S4096x32768 : Shape := ⟨2, ![4096, 32768]⟩
abbrev S32x32768 : Shape := ⟨2, ![32, 32768]⟩
abbrev S512x4096 : Shape := ⟨2, ![512, 4096]⟩
abbrev S512x32 : Shape := ⟨2, ![512, 32]⟩
abbrev S32x4096 : Shape := ⟨2, ![32, 4096]⟩

abbrev nBuf : Space → Nat
  | .hbm => 7
  | .vmem => 8
  | .smem => 0
  | _ => 0

abbrev bufTy : (tb : Table) → Fin (tcTables nBuf tb) → BufTy
  | .hbm, ⟨0, _⟩ => ⟨S4096x32, .f32⟩
  | .hbm, ⟨1, _⟩ => ⟨S32768x32, .f32⟩
  | .hbm, ⟨2, _⟩ => ⟨S1x32, .f32⟩
  | .hbm, ⟨3, _⟩ => ⟨S4096x4096, .f32⟩
  | .hbm, ⟨4, _⟩ => ⟨S4096x32768, .f32⟩
  | .hbm, ⟨5, _⟩ => ⟨S32x32768, .f32⟩
  | .hbm, ⟨6, _⟩ => ⟨S4096x32, .f32⟩
  | .local _ .vmem, ⟨0, _⟩ => ⟨S512x4096, .f32⟩
  | .local _ .vmem, ⟨1, _⟩ => ⟨S512x4096, .f32⟩
  | .local _ .vmem, ⟨2, _⟩ => ⟨S32x32768, .f32⟩
  | .local _ .vmem, ⟨3, _⟩ => ⟨S512x32, .f32⟩
  | .local _ .vmem, ⟨4, _⟩ => ⟨S512x32, .f32⟩
  | .local _ .vmem, ⟨5, _⟩ => ⟨S512x32, .f32⟩
  | .local _ .vmem, ⟨6, _⟩ => ⟨S512x32, .f32⟩
  | .local _ .vmem, ⟨7, _⟩ => ⟨S512x32, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c4096_i32 : BitVec 32 := 4096#32
  let v4 : BitVec 32 := Scalar.muli arg1 c4096_i32
  v4
def k0_off1 (i : grid0.Coords) : Fin 2 → Nat :=
  let c0_2 : Index := 0#32
  let arg1 : BitVec 32 := BitVec.ofNat 32 (i 1).val
  let c4096_i32 : BitVec 32 := 4096#32
  let v4 : BitVec 32 := Scalar.muli arg1 c4096_i32
  let v5 : BitVec 32 := v4
  let v6 : Index := Scalar.indexCast v5
  ![0, v6.toNat]
def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S32768x32_S32x32768_1_0 : S32768x32.Transposes [1, 0] S32x32768
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S512x4096_S512x4096_0_0 : ∀ a, (![0, 0] : Fin 2 → Nat) a + S512x4096.size a ≤ S512x4096.size a
  h_S512x4096 : 0 < S512x4096.numel
  h_S32x4096 : 0 < S32x4096.numel
  shapeCasts_S32x4096_S32x4096 : S32x4096.ShapeCasts S32x4096
  dot_S512x4096_S32x4096_S512x32_1_1_0_0_n_n_wf : DotDims.WF S512x4096 S32x4096 S512x32 [1] [1] [0] [0] [] []
  hrank0 : 0 < grid0.rank
  k0_mult1_dvd : ∀ i : grid0.Coords, 4096 ∣ (k0_mult1 i).toNat
  k0_off1_inb : ∀ i : grid0.Coords, ∀ a, (k0_off1 i) a + S32x4096.size a ≤ S32x32768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x32768.size a
  hwx0_0 : ∀ i : grid0.Coords, EltTy.bits .f32 = 32 ∨ (Rect.block (s := S4096x32768) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32768.size a ≤ S32x32768.size a
  hwx0_1 : ∀ i : grid0.Coords, EltTy.bits .f32 = 32 ∨ (Rect.block (s := S32x32768) S32x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S4096x32.size a
  hwx0_2 : ∀ i : grid0.Coords, EltTy.bits .f32 = 32 ∨ (Rect.block (s := S4096x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S4096x32.size a
  hwx0_3 : ∀ i : grid0.Coords, EltTy.bits .f32 = 32 ∨ (Rect.block (s := S4096x32) S512x32.size (cc0_transform_3 i) (hinb0_3 i)).WholeWords (EltTy.packing .f32)

variable [Facts₀]

def dot_S512x4096_S32x4096_S512x32_1_1_0_0_n_n : DotDims S512x4096 S32x4096 S512x32 where
  lhsContracting := [1]
  rhsContracting := [1]
  lhsNonContracting := [0]
  rhsNonContracting := [0]
  lhsBatch := []
  rhsBatch := []
  wf := dot_S512x4096_S32x4096_S512x32_1_1_0_0_n_n_wf

abbrev win0_0 : Pipeline.Window sig grid0 :=
  Pipeline.Window.ofSpec (Memref.whole main_arg4) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x32768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x32 : Shape := ⟨2, ![4096, 32]⟩
abbrev S32768x32 : Shape := ⟨2, ![32768, 32]⟩
abbrev S1x32 : Shape := ⟨2, ![1, 32]⟩
abbrev S4096x4096 : Shape := ⟨2, ![4096, 4096]⟩
abbrev S4096x32768 : Shape := ⟨2, ![4096, 32768]⟩

abbrev nBuf : Space → Nat
  | .hbm => 7
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S32768x32, .f32⟩
  | .hbm, ⟨2, _⟩ => ⟨S1x32, .f32⟩
  | .hbm, ⟨3, _⟩ => ⟨S4096x4096, .f32⟩
  | .hbm, ⟨4, _⟩ => ⟨S4096x32768, .f32⟩
  | .hbm, ⟨5, _⟩ => ⟨S4096x32, .f32⟩
  | .hbm, ⟨6, _⟩ => ⟨S4096x32, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩

abbrev nD : Nat := 1
abbrev τ : Topo := Topo.v7x

variable {F : FTy → Type} [FloatOps F]

class Facts₀ : Prop where
  dot_S4096x32768_S32768x32_S4096x32_1_0_0_1_n_n_wf : DotDims.WF S4096x32768 S32768x32 S4096x32 [1] [0] [0] [1] [] []

variable [Facts₀]

def dot_S4096x32768_S32768x32_S4096x32_1_0_0_1_n_n : DotDims S4096x32768 S32768x32 S4096x32 where
  lhsContracting := [1]
  rhsContracting := [0]
  lhsNonContracting := [0]
  rhsNonContracting := [1]
  lhsBatch := []
  rhsBatch := []
  wf := dot_S4096x32768_S32768x32_S4096x32_1_0_0_1_n_n_wf

class Facts : Prop extends Facts₀ where

variable [Facts]
-- ==== Proof.LibSumBlocks.lean ====
/-
  A finite sum cut into consecutive blocks.

  An index below `m * n` is `a * n + b` for exactly one block number `a < m` and one offset `b < n`, so a sum over
  `Fin (m * n)` in any commutative additive monoid is the sum, over the blocks, of each block's sum.  No order or
  finiteness of the summands is used: only that addition is associative and commutative, which holds on the extended
  reals too.
-/
import Mathlib.Algebra.BigOperators.Fin
import Mathlib.Logic.Equiv.Fin.Basic

open scoped BigOperators

namespace SumBlocks

/-- Offset `b` of block `a` lies below `m * n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The index `a * n + b` of a range of `N = m * n` indices. -/
def idx {m n N : ℕ} (hN : m * n = N) (a : Fin m) (b : Fin n) : Fin N := ⟨a.val * n + b.val, hN ▸ lt_mul a b⟩

@[simp] theorem idx_val {m n N : ℕ} (hN : m * n = N) (a : Fin m) (b : Fin n) : (idx hN a b).val = a.val * n + b.val := rfl

/-- A sum over `N = m * n` indices is the sum over the `m` blocks of the sum over each block's `n` offsets. -/
theorem sum_eq {β : Type*} [AddCommMonoid β] {m n N : ℕ} (hN : m * n = N) (f : Fin N → β) :
    ∑ k : Fin N, f k = ∑ a : Fin m, ∑ b : Fin n, f (idx hN a b) := by
  subst hN
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

end SumBlocks
-- ==== Proof.PooledSum.lean ====
/-
  Pooling edge features onto vertices, as one function of its three arrays, and the law by which eight partial
  contractions make the whole one.

  Row `r`, feature `d` of the result is the vertex's own feature plus the sum over all 32768 edges `k` of the
  incidence weight `a (r, k)` times the edge's feature `e (k, d)`. The edges fall into 8 consecutive runs of 4096;
  the sum over a run is a partial contraction, and because addition on the extended reals is associative and
  commutative (nothing else is used: no cancellation, no distributivity, so infinite entries are harmless) the 8 partial
  contractions add up to the contraction over all edges. A step of the computation is numbered `n = 8 g + s`: it is
  run `s` of the block of 512 rows numbered `g`; its addend at row `p` of the block is run `s`'s partial contraction
  for row `512 g + p`.
-/
import proofs.«166378_j1529008357760_2_alg».proof.Proof.LibSumBlocks
import Idealize.ShloMosaic.PureOps.Ideal
import Idealize.ShloMosaic.Lib.ValueIdx

noncomputable section

open scoped BigOperators

namespace Cert.Pooling

open Idealize.ShloMosaic Idealize.ShloMosaic.ValueIdx

/-- Vertex features, edge features and incidence weights, as extended reals. -/
abbrev Vtx := (⟨2, ![4096, 32]⟩ : Shape).Idx → EReal
abbrev Edg := (⟨2, ![32768, 32]⟩ : Shape).Idx → EReal
abbrev Inc := (⟨2, ![4096, 32768]⟩ : Shape).Idx → EReal

/-- The result at row `r`, feature `d`: the vertex's feature plus the contraction of its incidence row with the
    edges' feature `d`. -/
def pooledAt (v : Vtx) (e : Edg) (a : Inc) (r : Fin 4096) (d : Fin 32) : EReal :=
  v (ix2 r d) + ∑ k : Fin 32768, a (ix2 r k) * e (ix2 k d)

/-- The result array. -/
def pooled (v : Vtx) (e : Edg) (a : Inc) : Vtx :=
  fun i => pooledAt v e a ⟨(i 0).val, (i 0).isLt⟩ ⟨(i 1).val, (i 1).isLt⟩

theorem pooled_ix2 (v : Vtx) (e : Edg) (a : Inc) (r : Fin 4096) (d : Fin 32) :
    pooled v e a (ix2 r d) = pooledAt v e a r d := rfl

/-- The sum of `f` over run `s mod 8` of the 32768 edges: edges `4096 (s mod 8) … 4096 (s mod 8) + 4095`. -/
def runSum (f : Fin 32768 → EReal) (s : ℕ) : EReal :=
  ∑ l : Fin 4096, f ⟨4096 * (s % 8) + l.val, by have := l.isLt; have := Nat.mod_lt s (by norm_num : 8 > 0); omega⟩

/-- The 8 runs' sums total the sum over all edges. -/
theorem runs_total (f : Fin 32768 → EReal) : ∑ s ∈ Finset.range 8, runSum f s = ∑ k : Fin 32768, f k := by
  rw [Finset.sum_range, SumBlocks.sum_eq (m := 8) (n := 4096) (N := 32768) rfl f]
  refine Finset.sum_congr rfl fun s _ => Finset.sum_congr rfl fun l _ => congrArg f (Fin.ext ?_)
  show 4096 * (s.val % 8) + l.val = s.val * 4096 + l.val
  have := s.isLt; omega

/-- Step `n`'s addend at row `p`, feature `q` of its block of rows: run `n mod 8`'s partial contraction for row
    `512 (n / 8) + p` (the block number taken mod 8, so that this is a function of every natural number). -/
def addend (a : Inc) (e : Edg) (n : ℕ) (i : (⟨2, ![512, 32]⟩ : Shape).Idx) : EReal :=
  runSum (fun k => a (ix2 ⟨512 * ((n / 8) % 8) + (i 0).val, by
      have := (i 0).isLt; have := Nat.mod_lt (n / 8) (by norm_num : 8 > 0); show _ < 4096
      have h : (i 0).val < 512 := (i 0).isLt; omega⟩ k)
    * e (ix2 k ⟨(i 1).val, (i 1).isLt⟩)) n

/-- At step `8 g + s` with `s < 8` it is run `s`'s partial contraction for row `512 g + p`. -/
theorem addend_eq (a : Inc) (e : Edg) (g : Fin 8) (s : ℕ) (hs : s < 8) (p : Fin 512) (q : Fin 32)
    (hr : 512 * g.val + p.val < 4096) :
    addend a e (8 * g.val + s) (ix2 p q) = runSum (fun k => a (ix2 ⟨512 * g.val + p.val, hr⟩ k) * e (ix2 k q)) s := by
  unfold addend runSum
  refine Finset.sum_congr rfl fun l _ => ?_
  have e1 : (8 * g.val + s) % 8 = s % 8 := by omega
  have e2 : ((8 * g.val + s) / 8) % 8 = g.val := by have := g.isLt; omega
  refine congrArg₂ (· * ·) (congrArg a ?_) (congrArg e ?_)
  · refine funext fun x => Fin.ext ?_
    match x with
    | ⟨0, _⟩ => show 512 * (((8 * g.val + s) / 8) % 8) + p.val = 512 * g.val + p.val; rw [e2]
    | ⟨1, _⟩ => show 4096 * ((8 * g.val + s) % 8) + l.val = 4096 * (s % 8) + l.val; rw [e1]
  · refine funext fun x => Fin.ext ?_
    match x with
    | ⟨0, _⟩ => show 4096 * ((8 * g.val + s) % 8) + l.val = 4096 * (s % 8) + l.val; rw [e1]
    | ⟨1, _⟩ => rfl

/-- The 8 steps of a block of rows add up, at each row of the block, to the contraction over all edges. -/
theorem block_total (a : Inc) (e : Edg) (g : Fin 8) (p : Fin 512) (q : Fin 32) (hr : 512 * g.val + p.val < 4096) :
    ∑ s ∈ Finset.range 8, addend a e (8 * g.val + s) (ix2 p q)
      = ∑ k : Fin 32768, a (ix2 ⟨512 * g.val + p.val, hr⟩ k) * e (ix2 k q) := by
  rw [← runs_total]
  exact Finset.sum_congr rfl fun s hs => addend_eq a e g s (Finset.mem_range.mp hs) p q hr

end Cert.Pooling

end
-- ==== Proof.AccumulatorSteps.lean ====
/-
  What one step of the computation leaves behind, as values.

  The grid has 64 steps, `n = 8 g + s`: step `n` handles run `s` (4096 consecutive edges) of the block `g` of 512
  rows. Every step multiplies its 512 x 4096 tile of incidence weights by the matching 4096 columns of the transposed
  edge features and adds the product to a 512 x 32 accumulator. The first step of a block of rows (`s = 0`) first
  sets the accumulator to zero; the last (`s = 7`) also writes the residual block plus the accumulator to the output
  block. Here each of the three kinds of step is read as a value: the accumulator a step leaves is the step's payload
  of the tile, of the columns its offset selects, and of what the accumulator held (zero, for a first step); the
  output block a last step leaves is the residual block plus that. These hold for any interpretation of the floats.
-/
import proofs.«166378_j1529008357760_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Steps

open Cert.KernelIdeal Cert.KernelIdeal.Gen

variable {F : FTy → Type} [FloatOps F]

/-- The zero offsets of a whole-buffer rectangle, as the function the library's lemmas ask for. -/
theorem hz : (![0, 0] : Fin 2 → Nat) = fun _ => 0 := funext fun a => by fin_cases a <;> rfl

/-- The columns of the resident transposed matrix that the step at grid coordinates `i` contracts against:
    4096 consecutive columns starting at the step's offset. -/
abbrev chunk (i : grid0.Coords) (x1 : Vec F S32x32768 .f32) : Vec F S32x4096 .f32 :=
  View.ld x1 (Rect.unit (s := S32x32768) (k0_off1 i) S32x4096.size (k0_off1_inb i))

/-- A middle step (neither first nor last of its row block) leaves in the accumulator what it held plus the
    step's product. -/
theorem acc_B (c : Dev nD) (i : grid0.Coords) (a2 : Memref sig .tc .vmem S512x4096 .f32) (h2 : a2.IsWhole)
    (a3 : Memref sig .tc .vmem S32x32768 .f32) (h3 : a3.IsWhole) (a4 : Memref sig .tc .vmem S512x32 .f32) (h4 : a4.IsWhole)
    (a5 : Memref sig .tc .vmem S512x32 .f32) (h5 : a5.IsWhole) (a6 : Memref sig .tc .vmem S512x32 .f32) (h6 : a6.IsWhole)
    (hc0 : ¬cond0_0 i) (hc1 : ¬cond0_1 i)
    (x0 : Vec F S512x4096 .f32) (x1 : Vec F S32x32768 .f32) (x2 : Vec F S512x32 .f32) (xs0 : Vec F S512x32 .f32) :
    sout0_B_0 c i a2 h2 a3 h3 a4 h4 a5 h5 a6 h6 hc0 hc1 x0 x1 x2 xs0 = k0_pay2 x0 (chunk i x1) xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero hz]
  simp only [View.readAt_eq_ld, h2.read_unread, h3.read_unread, h6.read_unread, View.ld_unit_zero (S := S512x4096) hz,
    View.ld_unit_zero (S := S512x32) hz]

/-- The last step of a row block updates the accumulator exactly as a middle step does. -/
theorem acc_C (c : Dev nD) (i : grid0.Coords) (a2 : Memref sig .tc .vmem S512x4096 .f32) (h2 : a2.IsWhole)
    (a3 : Memref sig .tc .vmem S32x32768 .f32) (h3 : a3.IsWhole) (a4 : Memref sig .tc .vmem S512x32 .f32) (h4 : a4.IsWhole)
    (a5 : Memref sig .tc .vmem S512x32 .f32) (h5 : a5.IsWhole) (a6 : Memref sig .tc .vmem S512x32 .f32) (h6 : a6.IsWhole)
    (hc0 : ¬cond0_0 i) (hc1 : cond0_1 i)
    (x0 : Vec F S512x4096 .f32) (x1 : Vec F S32x32768 .f32) (x2 : Vec F S512x32 .f32) (xs0 : Vec F S512x32 .f32) :
    sout0_C_0 c i a2 h2 a3 h3 a4 h4 a5 h5 a6 h6 hc0 hc1 x0 x1 x2 xs0 = k0_pay2 x0 (chunk i x1) xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero (S := S512x32) hz]
  simp only [View.readAt_eq_ld, h2.read_unread, h3.read_unread, h6.read_unread, View.ld_unit_zero (S := S512x4096) hz,
    View.ld_unit_zero (S := S512x32) hz]
  rfl

/-- The first step of a row block stores the zero block, reads it back, and leaves zero plus the step's product. -/
theorem acc_A (c : Dev nD) (i : grid0.Coords) (a2 : Memref sig .tc .vmem S512x4096 .f32) (h2 : a2.IsWhole)
    (a3 : Memref sig .tc .vmem S32x32768 .f32) (h3 : a3.IsWhole) (a4 : Memref sig .tc .vmem S512x32 .f32) (h4 : a4.IsWhole)
    (a5 : Memref sig .tc .vmem S512x32 .f32) (h5 : a5.IsWhole) (a6 : Memref sig .tc .vmem S512x32 .f32) (h6 : a6.IsWhole)
    (hc0 : cond0_0 i) (hc1 : ¬cond0_1 i)
    (x0 : Vec F S512x4096 .f32) (x1 : Vec F S32x32768 .f32) (x2 : Vec F S512x32 .f32) :
    sout0_A_0 c i a2 h2 a3 h3 a4 h4 a5 h5 a6 h6 hc0 hc1 x0 x1 x2 = k0_pay2 x0 (chunk i x1) (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S512x32) hz, View.readCov_unit_zero (S := S512x32) _ hz]
  simp only [View.readAt_eq_ld, h2.read_unread, h3.read_unread, View.ld_unit_zero (S := S512x4096) hz]
  rfl

/-- The last step of a row block writes to the output block the residual block plus the accumulator it has
    just updated. -/
theorem out_C (c : Dev nD) (i : grid0.Coords) (a2 : Memref sig .tc .vmem S512x4096 .f32) (h2 : a2.IsWhole)
    (a3 : Memref sig .tc .vmem S32x32768 .f32) (h3 : a3.IsWhole) (a4 : Memref sig .tc .vmem S512x32 .f32) (h4 : a4.IsWhole)
    (a5 : Memref sig .tc .vmem S512x32 .f32) (h5 : a5.IsWhole) (a6 : Memref sig .tc .vmem S512x32 .f32) (h6 : a6.IsWhole)
    (hc0 : ¬cond0_0 i) (hc1 : cond0_1 i)
    (x0 : Vec F S512x4096 .f32) (x1 : Vec F S32x32768 .f32) (x2 : Vec F S512x32 .f32) (xs0 : Vec F S512x32 .f32) :
    out0_C_3 c i a2 h2 a3 h3 a4 h4 a5 h5 a6 h6 hc0 hc1 x0 x1 x2 xs0 = k0_pay3 x2 (k0_pay2 x0 (chunk i x1) xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero (S := S512x32) hz, View.readCov_unit_zero (S := S512x32) _ hz]
  simp only [View.readAt_eq_ld, h2.read_unread, h3.read_unread, h4.read_unread, h6.read_unread,
    View.ld_unit_zero (S := S512x4096) hz, View.ld_unit_zero (S := S512x32) hz]
  rfl

end Cert.KernelIdeal.Steps

end
-- ==== Proof.LibTransposedMatmul.lean ====
/-
  A matrix product against a TRANSPOSED right operand, into a zero accumulator, read at a row and a column.

  For dimension numbers that contract the left operand's columns with the right operand's COLUMNS (no batch axis) —
  the product  A Bᵀ  of an `[M, K]` matrix and an `[N, K]` matrix —, entry `(r, c)` accumulated into zero is the sum over
  `k` of `lhs (r, k) * rhs (c, k)` on the extended reals: the accumulator contributes `0`, and the contraction index,
  a rank-one index, is re-indexed by its one coordinate. Stated for any extents and float formats, with the dimension
  numbers given by their six lists, so that any printed record with these lists unifies.
-/
import Idealize.ShloMosaic.PureOps.Ideal.Laws
import Idealize.ShloMosaic.Lib.ValueIdx

namespace Cert.Lib.TransposedMatmul

open Idealize.ShloMosaic Idealize.ShloMosaic.ValueIdx

set_option backward.isDefEq.respectTransparency.types false in
/-- The product of `[M, K]` by the transpose of `[N, K]` into the zero splat, at `(r, c)`: `∑ k, lhs (r, k) * rhs (c, k)`. -/
theorem matmul_zero_apply {M K N : ℕ} {φ₁ φ₂ : FTy}
    (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (lhs : FVec Ideal ⟨2, ![M, K]⟩ φ₁) (rhs : FVec Ideal ⟨2, ![N, K]⟩ φ₂)
    (r : Fin M) (c : Fin N) :
    FloatOps.matmul d prec lhs rhs (constant ⟨2, ![M, N]⟩ .f32 0x00000000#32) (ix2 r c)
      = ∑ k : Fin K, lhs (ix2 r k) * rhs (ix2 c k) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : (⟨[1], [1], [0], [0], [], [], wf⟩ : DotDims ⟨2, ![M, K]⟩ ⟨2, ![N, K]⟩ ⟨2, ![M, N]⟩).lhsIdx (ix2 r c)
      ((contrEquiv1 (⟨[1], [1], [0], [0], [], [], wf⟩ : DotDims ⟨2, ![M, K]⟩ ⟨2, ![N, K]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [1], [0], [0], [], [], wf⟩ : DotDims ⟨2, ![M, K]⟩ ⟨2, ![N, K]⟩ ⟨2, ![M, N]⟩).rhsIdx (ix2 r c)
      ((contrEquiv1 (⟨[1], [1], [0], [0], [], [], wf⟩ : DotDims ⟨2, ![M, K]⟩ ⟨2, ![N, K]⟩ ⟨2, ![M, N]⟩) K rfl rfl).symm k) = ix2 c k :=
    funext fun a => Fin.ext (by
      match a with
      | ⟨0, h0⟩ =>
        unfold DotDims.rhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.rhsIdx_val_of_single _ rfl _ _).trans hk)
  rw [el, er]

end Cert.Lib.TransposedMatmul
-- ==== Proof.StepValues.lean ====
/-
  The three payloads of a step, read at a row and a feature, on the extended reals.

  The zero block is `0` everywhere. A step's accumulator update at `(p, q)` is what the accumulator held there plus
  the sum over the 4096 edges `l` of the step's run of `tile (p, l) * columns (q, l)`: the product against the
  transposed operand accumulates into zero, so the product's own accumulator contributes nothing, and the reshapes
  around it keep the shape. The residual add is pointwise.
-/
import proofs.«166378_j1529008357760_2_alg».proof.Proof.Gen.KernelIdeal.Skeleton
import proofs.«166378_j1529008357760_2_alg».proof.Proof.LibTransposedMatmul
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.StepValues

open Cert.KernelIdeal Cert.KernelIdeal.Gen

/-- The block a first step stores into the accumulator is zero everywhere. -/
theorem zero_apply (p : Fin 512) (q : Fin 32) : k0_pay1 (F := Ideal) (ix2 p q) = 0 := by
  unfold k0_pay1
  simp only [shapeCast_self]
  show Ideal.ofBits .f32 0x00000000#32 = 0
  exact Ideal.ofBits_zero_f32

/-- A step's update at `(p, q)`: what the accumulator held plus the contraction of row `p` of the tile with row `q`
    of the columns. -/
theorem step_apply (x0 : Vec Ideal S512x4096 .f32) (ch : Vec Ideal S32x4096 .f32) (acc : Vec Ideal S512x32 .f32)
    (p : Fin 512) (q : Fin 32) :
    k0_pay2 (F := Ideal) x0 ch acc (ix2 p q) = acc (ix2 p q) + ∑ l : Fin 4096, x0 (ix2 p l) * ch (ix2 q l) := by
  unfold k0_pay2
  simp only [shapeCast_self]
  refine (congrArg (fun z => FloatOps.addf (acc (ix2 p q)) z)
    (Cert.Lib.TransposedMatmul.matmul_zero_apply dot_S512x4096_S32x4096_S512x32_1_1_0_0_n_n rfl rfl rfl rfl rfl rfl
      none x0 ch p q)).trans ?_
  rfl

/-- The output block of a last step at `(p, q)`: the residual plus the accumulator. -/
theorem resid_apply (v a : Vec Ideal S512x32 .f32) (p : Fin 512) (q : Fin 32) :
    k0_pay3 (F := Ideal) v a (ix2 p q) = v (ix2 p q) + a (ix2 p q) := rfl

end Cert.KernelIdeal.StepValues

end
-- ==== Proof.BlockReads.lean ====
/-
  What each input block holds at a step, read at its coordinates in terms of the arrays the program was launched with.

  At step `n` the first window's block is the 512 x 4096 tile of the incidence weights at rows `512 (n / 8) …` and
  columns `4096 (n mod 8) …`; the third window's block is the residual rows `512 (n / 8) …`; the second window's
  block is the whole 32 x 32768 array the host transposed before the launch, so its entry `(q, e)` is the edge
  features' entry `(e, q)`; and the 4096 columns a step reads from it start at column `4096 (n mod 8)`. The block
  numbers and the offset are decided once over the 64 steps.
-/
import proofs.«166378_j1529008357760_2_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The incidence tile of step `t` is block `(t / 8, t mod 8)` of the weights. -/
theorem idx0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
/-- The transposed edge features are staged whole: block `(0, 0)` at every step. -/
theorem idx1 : ∀ t : Fin cfg0.N, win0_1.index t 0 = 0 ∧ win0_1.index t 1 = 0 :=
  (by decide +kernel : ∀ t : Fin grid0.N, win0_1.index t 0 = 0 ∧ win0_1.index t 1 = 0)
/-- The residual block of step `t` is block `(t / 8, 0)` of the vertex features. -/
theorem idx2 : ∀ t : Fin cfg0.N, win0_2.index t 0 = t.val / 8 ∧ win0_2.index t 1 = 0 :=
  (by decide +kernel : ∀ t : Fin grid0.N, win0_2.index t 0 = t.val / 8 ∧ win0_2.index t 1 = 0)
/-- The output block of step `t` is block `(t / 8, 0)` of the result. -/
theorem idx3 : ∀ t : Fin cfg0.N, win0_3.index t 0 = t.val / 8 ∧ win0_3.index t 1 = 0 :=
  (by decide +kernel : ∀ t : Fin grid0.N, win0_3.index t 0 = t.val / 8 ∧ win0_3.index t 1 = 0)
/-- The columns step `t` reads of the transposed edge features start at row offset `0`, column `4096 (t mod 8)`. -/
theorem off1 : ∀ t : Fin cfg0.N, k0_off1 (grid0.coords t) 0 = 0 ∧ k0_off1 (grid0.coords t) 1 = 4096 * (t.val % 8) :=
  (by decide +kernel : ∀ t : Fin grid0.N, k0_off1 (grid0.coords t) 0 = 0 ∧ k0_off1 (grid0.coords t) 1 = 4096 * (t.val % 8))

/-- Entry `(p, l)` of step `t`'s incidence tile is the weights' entry `(512 (t / 8) + p, 4096 (t mod 8) + l)`. -/
theorem blk0_apply (c : Dev nD) (t : Fin cfg0.N) (p : Fin 512) (l : Fin 4096)
    (hr : 512 * (t.val / 8) + p.val < 4096) (hk : 4096 * (t.val % 8) + l.val < 32768) :
    (iblk m c 0 t : Vec F S512x4096 .f32) (ix2 p l)
      = m ((c : Thread nD τ).loc main_arg4) (ix2 ⟨512 * (t.val / 8) + p.val, hr⟩ ⟨4096 * (t.val % 8) + l.val, hk⟩) := by
  unfold iblk
  rw [View.read_apply]
  show V m c main_arg4 _ = _
  rw [V_main_arg4]
  refine congrArg (m ((c : Thread nD τ).loc main_arg4)) (funext fun a => Fin.ext ?_)
  match a with
  | ⟨0, _⟩ => show win0_0.index t 0 * 512 + 1 * p.val = 512 * (t.val / 8) + p.val; have hh := (idx0 t).1; omega
  | ⟨1, _⟩ => show win0_0.index t 1 * 4096 + 1 * l.val = 4096 * (t.val % 8) + l.val; have hh := (idx0 t).2; omega

/-- Entry `(p, q)` of step `t`'s residual block is the vertex features' entry `(512 (t / 8) + p, q)`. -/
theorem blk2_apply (c : Dev nD) (t : Fin cfg0.N) (p : Fin 512) (q : Fin 32)
    (hr : 512 * (t.val / 8) + p.val < 4096) :
    (iblk m c 2 t : Vec F S512x32 .f32) (ix2 p q)
      = m ((c : Thread nD τ).loc main_arg0) (ix2 ⟨512 * (t.val / 8) + p.val, hr⟩ q) := by
  unfold iblk
  rw [View.read_apply]
  show V m c main_arg0 _ = _
  rw [V_main_arg0]
  refine congrArg (m ((c : Thread nD τ).loc main_arg0)) (funext fun a => Fin.ext ?_)
  match a with
  | ⟨0, _⟩ => show win0_2.index t 0 * 512 + 1 * p.val = 512 * (t.val / 8) + p.val; have hh := (idx2 t).1; omega
  | ⟨1, _⟩ => show win0_2.index t 1 * 32 + 1 * q.val = q.val; have hh := (idx2 t).2; omega

/-- The array the second window stages is the transpose the host computes before the launch. -/
theorem V_transposed (c : Dev nD) :
    (V m c main_v0 : S32x32768.Idx → Elt F .f32)
      = transpose S32x32768 [1, 0] (m ((c : Thread nD τ).loc main_arg1)) transposes_S32768x32_S32x32768_1_0 := by
  dsimp only [V, hostOps0]; after_results

/-- Entry `(q, e)` of the staged transpose is the edge features' entry `(e, q)`. -/
theorem blk1_apply (c : Dev nD) (t : Fin cfg0.N) (q : Fin 32) (e : Fin 32768) :
    (iblk m c 1 t : Vec F S32x32768 .f32) (ix2 q e) = m ((c : Thread nD τ).loc main_arg1) (ix2 e q) := by
  unfold iblk
  rw [View.read_apply]
  show V m c main_v0 _ = _
  rw [V_transposed]
  refine (transpose_apply [1, 0] _ transposes_S32768x32_S32x32768_1_0 _ (ix2 e q) ?_)
  intro b
  match b with
  | ⟨0, _⟩ => show q.val = win0_1.index t 0 * 32 + 1 * q.val; have hh := (idx1 t).1; omega
  | ⟨1, _⟩ => show e.val = win0_1.index t 1 * 32768 + 1 * e.val; have hh := (idx1 t).2; omega

/-- Entry `(q, l)` of the columns step `t` reads of a 32 x 32768 array is its entry `(q, 4096 (t mod 8) + l)`. -/
theorem chunk_apply (t : Fin cfg0.N) (x1 : Vec F S32x32768 .f32) (q : Fin 32) (l : Fin 4096)
    (hk : 4096 * (t.val % 8) + l.val < 32768) :
    (View.ld x1 (Rect.unit (s := S32x32768) (k0_off1 (grid0.coords t)) S32x4096.size (k0_off1_inb (grid0.coords t)))
        : Vec F S32x4096 .f32) (ix2 q l)
      = x1 (ix2 q ⟨4096 * (t.val % 8) + l.val, hk⟩) := by
  show x1 _ = x1 _
  refine congrArg x1 (funext fun a => Fin.ext ?_)
  match a with
  | ⟨0, _⟩ => show k0_off1 (grid0.coords t) 0 + 1 * q.val = q.val; have hh := (off1 t).1; omega
  | ⟨1, _⟩ => show k0_off1 (grid0.coords t) 1 + 1 * l.val = 4096 * (t.val % 8) + l.val; have hh := (off1 t).2; omega

end Cert.KernelIdeal.Blocks

end
-- ==== Proof.Accumulate.lean ====
/-
  The accumulator after each step, and the output block of a last step, in closed form.

  Within a block of 512 rows the accumulator starts, at the block's first step, from zero plus that step's addend, and
  every later step of the block adds its own addend; so after step `n = 8 g + s` it holds, at each row and feature,
  `0` plus the sum of the addends of steps `8 g … 8 g + s`. At the block's last step (`s = 7`) all 8 addends are
  in, which by the pooling law is the contraction over all 32768 edges; the output block written there is the residual
  block plus the accumulator, that is, the pooled result on the block's rows.
-/
import proofs.«166378_j1529008357760_2_alg».proof.Proof.Gen.KernelIdeal.Value
import proofs.«166378_j1529008357760_2_alg».proof.Proof.PooledSum
import proofs.«166378_j1529008357760_2_alg».proof.Proof.AccumulatorSteps
import proofs.«166378_j1529008357760_2_alg».proof.Proof.StepValues
import proofs.«166378_j1529008357760_2_alg».proof.Proof.BlockReads

noncomputable section

open Idealize.ShloMosaic Idealize.ShloMosaic.TcCoe Idealize.SL.Sem Idealize.ShloMosaic.ValueIdx
open scoped BigOperators

namespace Cert.KernelIdeal.Accumulate

open Cert.KernelIdeal Cert.KernelIdeal.Gen Cert.Pooling

variable (m : (ℓ : Loc nD τ sig) → Buf (Elt Ideal) ℓ)

/-- The three arrays the result depends on, as launched on core `c`. -/
abbrev vtx (c : Dev nD) : Vtx := m ((c : Thread nD τ).loc main_arg0)
abbrev edg (c : Dev nD) : Edg := m ((c : Thread nD τ).loc main_arg1)
abbrev inc (c : Dev nD) : Inc := m ((c : Thread nD τ).loc main_arg4)

/-- Equal factors give equal products (stated on the extended reals, so that the factors' types are read as such). -/
theorem mul_congr {a a' b b' : EReal} (ha : a = a') (hb : b = b') : a * b = a' * b' := by rw [ha, hb]

theorem lt64 (t : Fin cfg0.N) : t.val < 64 := lt_of_lt_of_eq t.isLt (show cfg0.N = 64 from N_0)

/-- A step's contraction of its tile `x0` with its columns of `x1`, the two being the step's blocks of the incidence
    weights and of the transposed edge features, is the step's addend. -/
theorem contraction_eq (c : Dev nD) (t : Fin cfg0.N) (x0 : Vec Ideal S512x4096 .f32) (x1 : Vec Ideal S32x32768 .f32)
    (hx0 : x0 = iblk m c 0 t) (hx1 : x1 = iblk m c 1 t) (p : Fin 512) (q : Fin 32) :
    ∑ l : Fin 4096, x0 (ix2 p l) * Steps.chunk (grid0.coords t) x1 (ix2 q l)
      = addend (inc m c) (edg m c) t.val (ix2 p q) := by
  subst hx0 hx1
  have hN := lt64 t
  unfold addend runSum
  refine Finset.sum_congr rfl fun l _ => ?_
  have hr : 512 * (t.val / 8) + p.val < 4096 := by have := p.isLt; omega
  have hk : 4096 * (t.val % 8) + l.val < 32768 := by have := l.isLt; omega
  refine (mul_congr (Blocks.blk0_apply m c t p l hr hk)
    ((Blocks.chunk_apply t (iblk m c 1 t) q l hk).trans (Blocks.blk1_apply m c t q ⟨_, hk⟩))).trans ?_
  refine mul_congr (congrArg (inc m c) ?_) (congrArg (edg m c) ?_)
  · refine funext fun x => Fin.ext ?_
    match x with
    | ⟨0, _⟩ => show 512 * (t.val / 8) + p.val = 512 * ((t.val / 8) % 8) + p.val; omega
    | ⟨1, _⟩ => rfl
  · refine funext fun x => Fin.ext ?_
    match x with
    | ⟨0, _⟩ => rfl
    | ⟨1, _⟩ => rfl

/-- The first step of a block of rows leaves zero plus its addend, whatever the accumulator held. -/
theorem first_step (c : Dev nD) (n : ℕ) (hb : n < cfg0.N) (h0 : n % 8 = 0) (acc : Vec Ideal S512x32 .f32)
    (i : S512x32.Idx) :
    Value.scAt0_0 m c n hb acc i = 0 + addend (inc m c) (edg m c) n i := by
  have h1 : ¬n % 8 = 7 := by omega
  obtain ⟨p, q, rfl⟩ : ∃ (p : Fin 512) (q : Fin 32), i = ix2 p q := ⟨i 0, i 1, eq_ix2 i⟩
  unfold Value.scAt0_0
  rw [dif_pos h0, dif_neg h1]
  refine (congrFun (Steps.acc_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N))) (ix2 p q)).trans ?_
  refine (StepValues.step_apply (iblk m c 0 (⟨n, hb⟩ : Fin cfg0.N)) (Steps.chunk (grid0.coords (⟨n, hb⟩ : Fin cfg0.N)) (iblk m c 1 (⟨n, hb⟩ : Fin cfg0.N)))
    (k0_pay1 (F := Ideal)) p q).trans ?_
  exact congrArg₂ (· + ·) (StepValues.zero_apply p q) (contraction_eq m c (⟨n, hb⟩ : Fin cfg0.N) (iblk m c 0 (⟨n, hb⟩ : Fin cfg0.N)) (iblk m c 1 (⟨n, hb⟩ : Fin cfg0.N)) rfl rfl p q)

/-- Every other step of the block adds its addend to what the accumulator held. -/
theorem later_step (c : Dev nD) (n : ℕ) (hb : n < cfg0.N) (h0 : ¬n % 8 = 0) (acc : Vec Ideal S512x32 .f32)
    (i : S512x32.Idx) :
    Value.scAt0_0 m c n hb acc i = acc i + addend (inc m c) (edg m c) n i := by
  obtain ⟨p, q, rfl⟩ : ∃ (p : Fin 512) (q : Fin 32), i = ix2 p q := ⟨i 0, i 1, eq_ix2 i⟩
  unfold Value.scAt0_0
  rw [dif_neg h0]
  by_cases h1 : n % 8 = 7
  · rw [dif_pos h1]
    refine (congrFun (Steps.acc_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc) (ix2 p q)).trans ?_
    exact (StepValues.step_apply (iblk m c 0 (⟨n, hb⟩ : Fin cfg0.N)) (Steps.chunk (grid0.coords (⟨n, hb⟩ : Fin cfg0.N)) (iblk m c 1 (⟨n, hb⟩ : Fin cfg0.N))) acc p q).trans
      (congrArg (acc (ix2 p q) + ·) (contraction_eq m c (⟨n, hb⟩ : Fin cfg0.N) (iblk m c 0 (⟨n, hb⟩ : Fin cfg0.N)) (iblk m c 1 (⟨n, hb⟩ : Fin cfg0.N)) rfl rfl p q))
  · rw [dif_neg h1]
    refine (congrFun (Steps.acc_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc) (ix2 p q)).trans ?_
    exact (StepValues.step_apply (iblk m c 0 (⟨n, hb⟩ : Fin cfg0.N)) (Steps.chunk (grid0.coords (⟨n, hb⟩ : Fin cfg0.N)) (iblk m c 1 (⟨n, hb⟩ : Fin cfg0.N))) acc p q).trans
      (congrArg (acc (ix2 p q) + ·) (contraction_eq m c (⟨n, hb⟩ : Fin cfg0.N) (iblk m c 0 (⟨n, hb⟩ : Fin cfg0.N)) (iblk m c 1 (⟨n, hb⟩ : Fin cfg0.N)) rfl rfl p q))

/-- After step `t` the accumulator holds zero plus the addends of the steps of `t`'s block of rows up to `t`. -/
theorem acc_after (c : Dev nD) (t : Fin cfg0.N) (i : S512x32.Idx) :
    (outsAt0 m c t.val t.isLt).2 i
      = 0 + ∑ s ∈ Finset.range (t.val % 8 + 1), addend (inc m c) (edg m c) (8 * (t.val / 8) + s) i := by
  have hN := lt64 t
  rw [Value.soutsAt0_0_eq m c t]
  exact Pipeline.accAt_add_apply _ _ (fun _ => (0 : EReal)) (addend (inc m c) (edg m c)) (8 * (t.val / 8)) 7
    (fun h i => first_step m c _ h (by omega) _ i)
    (fun n h acc i hlt hle => later_step m c n h (by omega) acc i)
    (t.val % 8) (by omega) _ i

/-- At a last step the output block is the residual block plus the accumulator the step leaves. -/
theorem last_output (c : Dev nD) (t : Fin cfg0.N) (h7 : t.val % 8 = 7) :
    (outsAt0 m c t.val t.isLt).1 = k0_pay3 (iblk m c 2 t) ((outsAt0 m c t.val t.isLt).2) := by
  have h0 : ¬t.val % 8 = 0 := by omega
  rw [outsAt0_C m c t h0 h7]
  dsimp only
  exact (Steps.out_C c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).trans
    (congrArg (k0_pay3 (iblk m c 2 t)) (Steps.acc_C c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _).symm)

/-- So at row `p`, feature `q` of the block it is the pooled result at row `512 (t / 8) + p`. -/
theorem last_output_apply (c : Dev nD) (t : Fin cfg0.N) (h7 : t.val % 8 = 7) (p : Fin 512) (q : Fin 32)
    (hr : 512 * (t.val / 8) + p.val < 4096) :
    (outsAt0 m c t.val t.isLt).1 (ix2 p q)
      = pooledAt (vtx m c) (edg m c) (inc m c) ⟨512 * (t.val / 8) + p.val, hr⟩ q := by
  have hN := lt64 t
  rw [last_output m c t h7]
  refine (StepValues.resid_apply (iblk m c 2 t) ((outsAt0 m c t.val t.isLt).2) p q).trans ?_
  rw [acc_after m c t (ix2 p q), h7, zero_add]
  unfold pooledAt
  exact congrArg₂ (· + ·) (Blocks.blk2_apply m c t p q hr)
    (block_total (inc m c) (edg m c) ⟨t.val / 8, by omega⟩ p q hr)

end Cert.KernelIdeal.Accumulate

end
-- ==== Proof.ResultArray.lean ====
/-
  From blocks to the whole result array.

  The output's block number does not move within a block of 512 rows, so the pipeline writes the output block back
  only after the last step of each block of rows, the steps `t` with `t mod 8 = 7`. What is written there is
  the pooled result restricted to rows `512 (t / 8) … 512 (t / 8) + 511`. Row `r` of the array lies in the block
  written after step `8 (r / 512) + 7`, so the eight write-backs cover the array, and the array ends holding the
  pooled result of the arrays the program was launched with.
-/
import proofs.«166378_j1529008357760_2_alg».proof.Proof.Accumulate

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Pooling

variable (m : (ℓ : Loc nD τ sig) → Buf (Elt Ideal) ℓ) (ρ : Dev nD → PrngReg)

/-- The pooled result of core `c`'s launch arrays, as contents of the result array. -/
abbrev result (c : Dev nD) : Buf (Elt Ideal) ((c : Thread nD τ).loc main_v1) :=
  pooled (Accumulate.vtx m c) (Accumulate.edg m c) (Accumulate.inc m c)

/-- What a write-back writes is the pooled result read through the block it writes. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have hN := Accumulate.lt64 t
  rw [Value.flushed3 m c t]
  funext j
  have hj0 : (j 0).val < 512 := (j 0).isLt
  have hj1 : (j 1).val < 32 := (j 1).isLt
  show (outsAt0 m c t.val t.isLt).1 j = result m c (((cfg0.win 3).blk t).view.emb j)
  have ej : j = ix2 (⟨(j 0).val, hj0⟩ : Fin 512) (⟨(j 1).val, hj1⟩ : Fin 32) :=
    funext fun a => by
      match a with
      | ⟨0, _⟩ => rfl
      | ⟨1, _⟩ => rfl
  refine (congrArg ((outsAt0 m c t.val t.isLt).1) ej).trans ?_
  refine (Accumulate.last_output_apply m c t h7 ⟨(j 0).val, hj0⟩ ⟨(j 1).val, hj1⟩ (by omega)).trans ?_
  refine (pooled_ix2 _ _ _ _ _).symm.trans (congrArg (result m c) ?_)
  refine funext fun a => Fin.ext ?_
  match a with
  | ⟨0, _⟩ =>
    show 512 * (t.val / 8) + (j 0).val = win0_3.index t 0 * 512 + 1 * (j 0).val
    have := (Blocks.idx3 t).1; omega
  | ⟨1, _⟩ =>
    show (j 1).val = win0_3.index t 1 * 32 + 1 * (j 1).val
    have := (Blocks.idx3 t).2; omega

/-- An index of the array is in step `t`'s output block iff each coordinate is in the block's range on its axis. -/
theorem mem_blk (t : Fin cfg0.N) (i : S4096x32.Idx) :
    i ∈ ((cfg0.win 3).blk t).view.set ↔ ∀ a : Fin 2, win0_3.index t a * S512x32.size a ≤ (i a).val
      ∧ (i a).val < win0_3.index t a * S512x32.size a + S512x32.size a := by
  show i ∈ ((View.whole main_v1).slice (win0_3.rect t)).set ↔ _
  rw [View.set_slice_whole, Rect.mem_set_unit]
  exact Iff.rfl

/-- Every index of the array is in the block written back after the last step of its block of rows. -/
theorem cover (i : S4096x32.Idx) :
    ∃ t : Fin cfg0.N, (cfg0.win 3).flush t = true ∧ i ∈ ((cfg0.win 3).blk t).view.set := by
  have hi0 : (i 0).val < 4096 := (i 0).isLt
  have hi1 : (i 1).val < 32 := (i 1).isLt
  have hlt : 8 * ((i 0).val / 512) + 7 < cfg0.N := by rw [show cfg0.N = 64 from N_0]; omega
  have e0 : win0_3.index ⟨8 * ((i 0).val / 512) + 7, hlt⟩ 0 = (8 * ((i 0).val / 512) + 7) / 8 := (Blocks.idx3 ⟨_, hlt⟩).1
  have e1 : win0_3.index ⟨8 * ((i 0).val / 512) + 7, hlt⟩ 1 = 0 := (Blocks.idx3 ⟨_, hlt⟩).2
  refine ⟨⟨8 * ((i 0).val / 512) + 7, hlt⟩, (flush0_3 _).mpr (by show (8 * ((i 0).val / 512) + 7) % 8 = 7; omega), ?_⟩
  rw [mem_blk]
  intro a
  match a with
  | ⟨0, _⟩ =>
    show win0_3.index ⟨8 * ((i 0).val / 512) + 7, hlt⟩ 0 * 512 ≤ (i 0).val
      ∧ (i 0).val < win0_3.index ⟨8 * ((i 0).val / 512) + 7, hlt⟩ 0 * 512 + 512
    rw [e0]; omega
  | ⟨1, _⟩ =>
    show win0_3.index ⟨8 * ((i 0).val / 512) + 7, hlt⟩ 1 * 32 ≤ (i 1).val
      ∧ (i 1).val < win0_3.index ⟨8 * ((i 0).val / 512) + 7, hlt⟩ 1 * 32 + 32
    rw [e1]; omega

/-- The result array after the run is the pooled result. -/
theorem final (c : Dev nD) : (dats m 0 c).arrAt 3 cfg0.N = result m c :=
  (dats m 0 c).arrAt_eq_of_cover 3 (result m c) (flushed_eq m c) cover

/-- The run: the result array at the pooled result of the launch arrays, the five arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.lean ====
/-
  Pooling edge features onto vertices: the tiled, accumulated computation and the single contraction agree on the
  extended reals.

  Both programs take vertex features `v` (4096 x 32), edge features `e` (32768 x 32), two arrays they only pass
  through, and incidence weights `a` (4096 x 32768), and return `v + a e` together with the last four arguments
  unchanged. The reference contracts over all 32768 edges at once. The tiled program transposes `e` on the host, then
  for each block of 512 rows runs 8 steps, each contracting 4096 consecutive edges against the matching columns of the
  transpose and adding the partial contraction to an accumulator that starts at zero, and after the 8th step writes
  the residual rows plus the accumulator. Entry `(r, d)` of either result is
  `v (r, d) + sum over k of a (r, k) * e (k, d)`: the transpose only renames the entry of `e` that is read, each
  product has its factors in the same order on both sides, zero plus a sum is the sum, and eight consecutive partial
  sums make the whole sum because addition of extended reals is associative and commutative. Nothing here needs the
  inputs to be finite, so the precondition is never opened.

  The tiled program's side is assembled in the imported modules (a step as a value; the blocks read at coordinates; the
  accumulator in closed form; the eight write-backs covering the array); this file reads the reference's two
  operations at an index, identifies them with the same function, and joins the two runs.
-/
import proofs.«166378_j1529008357760_2_alg».proof.Defs
import proofs.«166378_j1529008357760_2_alg».proof.Proof.Gen.Kernel
import proofs.«166378_j1529008357760_2_alg».proof.Proof.Gen.Kernel.Frame
import proofs.«166378_j1529008357760_2_alg».proof.Proof.Gen.KernelIdeal
import proofs.«166378_j1529008357760_2_alg».proof.Proof.Gen.KernelIdeal.Frame
import proofs.«166378_j1529008357760_2_alg».proof.Proof.Gen.KernelIdeal.Value
import proofs.«166378_j1529008357760_2_alg».proof.Proof.Gen.ReferenceIdeal
import proofs.«166378_j1529008357760_2_alg».proof.Proof.Gen.ReferenceIdeal.Run
import proofs.«166378_j1529008357760_2_alg».proof.Proof.Gen.ReferenceIdeal.Read
import proofs.«166378_j1529008357760_2_alg».proof.Proof.Gen.Pre_finite_inputs
import proofs.«166378_j1529008357760_2_alg».proof.Proof.PooledSum
import proofs.«166378_j1529008357760_2_alg».proof.Proof.ResultArray
import Idealize.ShloMosaic.Adequacy
import Idealize.ShloMosaic.Init

noncomputable section

open Idealize.ShloMosaic Idealize.ShloMosaic.TcCoe Idealize.SL.Sem

/-! ## The reference's two operations are the pooled result -/

namespace Cert.ReferenceIdeal.RefValue

open Cert.ReferenceIdeal Cert.ReferenceIdeal.Gen Cert.Pooling Idealize.ShloMosaic.ValueIdx

/-- The contraction over all edges followed by the residual add, read at an index, is the pooled result there: the
    index the contraction reads of the incidence weights is `(row, k)` and of the edge features `(k, feature)`. -/
theorem reference_eq (x0 : (⟨S4096x32, .f32⟩ : BufTy).Contents (Elt Ideal))
    (x1 : (⟨S32768x32, .f32⟩ : BufTy).Contents (Elt Ideal)) (x4 : (⟨S4096x32768, .f32⟩ : BufTy).Contents (Elt Ideal)) :
    Read.val_main_v1 (F := Ideal) x0 x1 x4 = pooled x0 x1 x4 := by
  funext i
  rw [Read.val_main_v1_apply, Read.val_main_v0_apply]
  show x0 i + ∑ k : Fin 32768, x4 (Read.lidx_main_v0 i k) * x1 (Read.ridx_main_v0 i k)
    = pooledAt x0 x1 x4 ⟨(i 0).val, (i 0).isLt⟩ ⟨(i 1).val, (i 1).isLt⟩
  unfold pooledAt
  refine congrArg₂ (· + ·) (congrArg x0 ?_)
    (Finset.sum_congr rfl fun k _ => congrArg₂ (· * ·) (congrArg x4 ?_) (congrArg x1 ?_))
  all_goals
    refine funext fun a => Fin.ext ?_
    match a with
    | ⟨0, _⟩ => rfl
    | ⟨1, _⟩ => rfl

end Cert.ReferenceIdeal.RefValue

/-! ## The claims -/

namespace Cert.Proof

theorem frame_k : Cert.frame_Kernel := fun m ρ _ => Cert.Kernel.Gen.frame m ρ

theorem frame_ki : Cert.frame_KernelIdeal := fun m ρ _ => Cert.KernelIdeal.Gen.frame m ρ

/-- The reference's run leaves its arguments as they were: its run with the results dropped. -/
theorem frame_ri : Cert.frame_ReferenceIdeal := fun m ρ _ =>
  (θ_run Cert.ReferenceIdeal.defs _ _).mono (fun _ h c => (h c).2.2.2.2.2)
    (Cert.ReferenceIdeal.Value.run (F := Ideal) m ρ)

/-- Nothing was rewritten between the two readings of the tiled program. -/
theorem preserves : Cert.preserves_Kernel_KernelIdeal := trivial

/-- From memories that agree on the arguments, the tiled program's result array ends at the pooled result of its
    arguments and the reference's at its two operations' value of the same arguments, which is that pooled result;
    the other four results are arguments neither program writes. -/
theorem algebraic : Cert.algebraic_KernelIdeal_ReferenceIdeal := by
  intro m ρ m' ρ' _ hagree
  refine ⟨fun c => Cert.KernelIdeal.Result.result m c, _, _, _, _,
    (θ_run Cert.KernelIdeal.defs _ _).mono
      (fun _ h c => ⟨(h c).1, (h c).2.2.1, (h c).2.2.2.1, (h c).2.2.2.2.1, (h c).2.2.2.2.2, (h c).2⟩)
      (Cert.KernelIdeal.Result.run m ρ), ?_⟩
  refine (θ_run Cert.ReferenceIdeal.defs _ _).mono (fun _ h c => ?_)
    (Cert.ReferenceIdeal.Value.run (F := Ideal) m' ρ')
  have ha := hagree c
  refine ⟨(h c).1.trans ?_, (h c).2.1.trans ha.2.1, (h c).2.2.1.trans ha.2.2.1, (h c).2.2.2.1.trans ha.2.2.2.1,
    (h c).2.2.2.2.1.trans ha.2.2.2.2, (h c).2.2.2.2.2⟩
  rw [Cert.ReferenceIdeal.Read.val_main_v1_eq, Cert.ReferenceIdeal.RefValue.reference_eq, ha.1, ha.2.1, ha.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
